-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x65 : Shape := ⟨2, ![100000, 65]⟩
abbrev S2x1600000 : Shape := ⟨2, ![2, 1600000]⟩
abbrev S65x64 : Shape := ⟨2, ![65, 64]⟩
abbrev S64 : Shape := ⟨1, ![64]⟩
abbrev S64x64 : Shape := ⟨2, ![64, 64]⟩
abbrev S_ : Shape := ⟨0, ![]⟩

class Facts : Prop where
  bcast_S_S100000x65 : S_.BroadcastsInDim S100000x65 (![] : Fin 0 → Fin S100000x65.rank)
  reducesTo_S100000x65_S_d0_1 : S100000x65.ReducesTo [0, 1] S_
  h_S_ : 0 < S_.numel
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x65 .f32) (main_arg1 : IVec S2x1600000 32) (main_arg2 : FVec F S65x64 .f32) (main_arg3 : FVec F S64 .f32) (main_arg4 : FVec F S64x64 .f32) (main_arg5 : FVec F S64 .f32) : IVec S_ 1 :=
  let main_v0 : FVec F S100000x65 .f32 := Host.absf main_arg0
  let main_cst : FVec F S_ .f32 := constant S_ .f32 0x7F800000#32
  let main_v1 : FVec F S100000x65 .f32 := broadcastInDim S100000x65 ![] bcast_S_S100000x65 main_cst
  let main_v2 : IVec S100000x65 1 := cmpf .olt main_v0 main_v1
  let main_c : IVec S_ 1 := constantI S_ 1 1#1
  let main_v3 : IVec S_ 1 := (fun x v => Host.reduce IntOp.andi x v reducesTo_S100000x65_S_d0_1 h_S_) main_v2 main_c
  let main_v4 : FVec F S65x64 .f32 := Host.absf main_arg2
  let main_cst_0 : FVec F S_ .f32 := constant S_ .f32 0x7F800000#32
  let main_v5 : FVec F S65x64 .f32 := broadcastInDim S65x64 ![] bcast_S_S65x64 main_cst_0
  let main_v6 : IVec S65x64 1 := cmpf .olt main_v4 main_v5
  let main_c_1 : IVec S_ 1 := constantI S_ 1 1#1
  let main_v7 : IVec S_ 1 := (fun x v => Host.reduce IntOp.andi x v reducesTo_S65x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x65 : Shape := ⟨2, ![100000, 65]⟩
abbrev S2x1600000 : Shape := ⟨2, ![2, 1600000]⟩
abbrev S65x64 : Shape := ⟨2, ![65, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x65 : Shape := ⟨2, ![1600000, 65]⟩
abbrev S1x64 : Shape := ⟨2, ![1, 64]⟩
abbrev S100000x64 : Shape := ⟨2, ![100000, 64]⟩
abbrev S10000x65 : Shape := ⟨2, ![10000, 65]⟩
abbrev S10000x64 : Shape := ⟨2, ![10000, 64]⟩
abbrev S5000x65 : Shape := ⟨2, ![5000, 65]⟩
abbrev S5000x64 : Shape := ⟨2, ![5000, 64]⟩

abbrev nBuf : Space → Nat
  | .hbm => 26
  | .vmem => 10
  | .smem => 0
  | _ => 0

abbrev bufTy : (tb : Table) → Fin (tcTables nBuf tb) → BufTy
  | .hbm, ⟨0, _⟩ => ⟨S100000x65, .f32⟩
  | .hbm, ⟨1, _⟩ => ⟨S2x1600000, .i32⟩
  | .hbm, ⟨2, _⟩ => ⟨S65x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x65, .f32⟩
  | .hbm, ⟨19, _⟩ => ⟨S_, .f32⟩
  | .hbm, ⟨20, _⟩ => ⟨S100000x65, .f32⟩
  | .hbm, ⟨21, _⟩ => ⟨S1600000x1, .i32⟩
  | .hbm, ⟨22, _⟩ => ⟨S100000x65, .f32⟩
  | .hbm, ⟨23, _⟩ => ⟨S1x64, .f32⟩
  | .hbm, ⟨24, _⟩ => ⟨S1x64, .f32⟩
  | .hbm, ⟨25, _⟩ => ⟨S100000x64, .f32⟩
  | .local _ .vmem, ⟨0, _⟩ => ⟨S10000x65, .f32⟩
  | .local _ .vmem, ⟨1, _⟩ => ⟨S10000x65, .f32⟩
  | .local _ .vmem, ⟨2, _⟩ => ⟨S10000x65, .f32⟩
  | .local _ .vmem, ⟨3, _⟩ => ⟨S10000x65, .f32⟩
  | .local _ .vmem, ⟨4, _⟩ => ⟨S65x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c5000_i32 : BitVec 32 := 5000#32
  let v9 : BitVec 32 := Scalar.muli arg8 c5000_i32
  v9
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c5000_i32 : BitVec 32 := 5000#32
  let v9 : BitVec 32 := Scalar.muli arg8 c5000_i32
  let v10 : BitVec 32 := v9
  let v11 : Index := Scalar.indexCast v10
  let c0_8 : Index := 0#32
  ![v11.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c5000_i32 : BitVec 32 := 5000#32
  let v9 : BitVec 32 := Scalar.muli arg8 c5000_i32
  let v10 : BitVec 32 := v9
  let v27 : Index := Scalar.indexCast v10
  let c0_12 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x65 : S_.BroadcastsInDim S100000x65 (![] : Fin 0 → Fin S100000x65.rank)
  shapeCasts_S64_S1x64 : S64.ShapeCasts S1x64
  inb_S65x64_S65x64_0_0 : ∀ a, (![0, 0] : Fin 2 → Nat) a + S65x64.size a ≤ S65x64.size a
  h_S65x64 : 0 < S65x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S5000x65 : 0 < S5000x65.numel
  shapeCasts_S5000x65_S5000x65 : S5000x65.ShapeCasts S5000x65
  broadcasts_S1x64_S5000x64 : S1x64.Broadcasts S5000x64
  h_S5000x64 : 0 < S5000x64.numel
  gather_S100000x65_S1600000x1_S1600000x65_1_0_n_n_0_1_165_wf : GatherDims.WF S100000x65 S1600000x1 S1600000x65 [1] [0] [] [0] [] 1 ![1, 65]
  scatter_S100000x65_S1600000x1_S1600000x65_1_0_0_1_wf : ScatterDims.WF S100000x65 S1600000x1 S1600000x65 [1] [0] [0] 1
  dot_S5000x65_S65x64_S5000x64_1_0_0_1_n_n_wf : DotDims.WF S5000x65 S65x64 S5000x64 [1] [0] [0] [1] [] []
  dot_S5000x64_S64x64_S5000x64_1_0_0_1_n_n_wf : DotDims.WF S5000x64 S64x64 S5000x64 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S5000x65.size a ≤ S10000x65.size a
  k0_off2_inb : ∀ k0_t1 : Fin k0_t1_loop.trips, ∀ a, (k0_off2 k0_t1) a + S5000x64.size a ≤ S10000x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x65.size a ≤ S100000x65.size a
  hwx0_0 : ∀ i : grid0.Coords, EltTy.bits .f32 = 32 ∨ (Rect.block (s := S100000x65) S10000x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x65.size a ≤ S100000x65.size a
  hwx0_1 : ∀ i : grid0.Coords, EltTy.bits .f32 = 32 ∨ (Rect.block (s := S100000x65) S10000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x64.size a ≤ S65x64.size a
  hwx0_2 : ∀ i : grid0.Coords, EltTy.bits .f32 = 32 ∨ (Rect.block (s := S65x64) S65x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S5000x65_S65x64_S5000x64_1_0_0_1_n_n : DotDims S5000x65 S65x64 S5000x64 where
  lhsContracting := [1]
  rhsContracting := [0]
  lhsNonContracting := [0]
  rhsNonContracting := [1]
  lhsBatch := []
  rhsBatch := []
  wf := dot_S5000x65_S65x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S10000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S65x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x65 : Shape := ⟨2, ![100000, 65]⟩
abbrev S2x1600000 : Shape := ⟨2, ![2, 1600000]⟩
abbrev S65x64 : Shape := ⟨2, ![65, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x65 : Shape := ⟨2, ![1600000, 65]⟩
abbrev S100000x64 : Shape := ⟨2, ![100000, 64]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S100000x65, .f32⟩
  | .hbm, ⟨1, _⟩ => ⟨S2x1600000, .i32⟩
  | .hbm, ⟨2, _⟩ => ⟨S65x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x65, .f32⟩
  | .hbm, ⟨19, _⟩ => ⟨S_, .f32⟩
  | .hbm, ⟨20, _⟩ => ⟨S100000x65, .f32⟩
  | .hbm, ⟨21, _⟩ => ⟨S1600000x1, .i32⟩
  | .hbm, ⟨22, _⟩ => ⟨S100000x65, .f32⟩
  | .hbm, ⟨23, _⟩ => ⟨S100000x65, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | _, _ => ⟨S100000x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x65 : S_.BroadcastsInDim S100000x65 (![] : Fin 0 → Fin S100000x65.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x65_S1600000x1_S1600000x65_1_0_n_n_0_1_165_wf : GatherDims.WF S100000x65 S1600000x1 S1600000x65 [1] [0] [] [0] [] 1 ![1, 65]
  scatter_S100000x65_S1600000x1_S1600000x65_1_0_0_1_wf : ScatterDims.WF S100000x65 S1600000x1 S1600000x65 [1] [0] [0] 1
  dot_S100000x65_S65x64_S100000x64_1_0_0_1_n_n_wf : DotDims.WF S100000x65 S65x64 S100000x64 [1] [0] [0] [1] [] []
  dot_S100000x64_S64x64_S100000x64_1_0_0_1_n_n_wf : DotDims.WF S100000x64 S64x64 S100000x64 [1] [0] [0] [1] [] []

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S100000x65_S65x64_S100000x64_1_0_0_1_n_n : DotDims S100000x65 S65x64 S100000x64 where
  lhsContracting := [1]
  rhsContracting := [0]
  lhsNonContracting := [0]
  rhsNonContracting := [1]
  lhsBatch := []
  rhsBatch := []
  wf := dot_S100000x65_S65x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.GraphLayer.lean ====
/- One layer of a sum-aggregating graph network, written once as a function of its arrays.

   A node `r` carries a feature row `x r : Fin 65 → EReal`; `a r` is the sum of the feature rows of the nodes with an
   edge into `r`. The layer adds the two, applies an affine map to 64 hidden channels, clips below at zero and
   applies a second affine map:

       out r c = ∑ k, max (∑ l, (x r l + a r l) · W1 l k + b1 k) 0 · W2 k c + b2 c.

   Everything is over the extended reals, where `+`, `·` and `max` are total; no law of the reals is used, so the
   definition needs no finiteness of its arguments. An output entry depends on ONE row of `x` and of `a`: `node`
   is that dependence, and `layer` reads it at every row of a [100000, 65] array. -/
import Idealize.ShloMosaic.PureOps.Ideal
import Idealize.ShloMosaic.Lib.ValueIdx

noncomputable section

open scoped BigOperators

namespace GraphLayer

open Idealize.ShloMosaic Idealize.ShloMosaic.ValueIdx

/-- The f32 word of `0.0`, as the extended real both programs clip at (it is `0`; the word is never evaluated,
    both programs spell it the same). -/
abbrev zeroWord : EReal := Ideal.ofBits .f32 0x00000000#32

/-- Hidden channel `k` of a node whose own features are `xr` and whose neighbours' summed features are `ar`. -/
def hiddenChannel (xr ar : Fin 65 → EReal) (W1 : (⟨2, ![65, 64]⟩ : Shape).Idx → EReal) (b1 : Fin 64 → EReal) (k : Fin 64) : EReal :=
  max ((∑ l : Fin 65, (xr l + ar l) * W1 (ix2 l k)) + b1 k) zeroWord

/-- Output channel `c` of that node. -/
def node (xr ar : Fin 65 → EReal) (W1 : (⟨2, ![65, 64]⟩ : Shape).Idx → EReal) (b1 : Fin 64 → EReal)
    (W2 : (⟨2, ![64, 64]⟩ : Shape).Idx → EReal) (b2 : Fin 64 → EReal) (c : Fin 64) : EReal :=
  (∑ k : Fin 64, hiddenChannel xr ar W1 b1 k * W2 (ix2 k c)) + b2 c

/-- `node` depends on its arrays only through the entries it reads: equal rows, weights and biases give equal outputs. -/
theorem node_congr {xr xr' ar ar' : Fin 65 → EReal} {W1 W1' : (⟨2, ![65, 64]⟩ : Shape).Idx → EReal} {b1 b1' : Fin 64 → EReal}
    {W2 W2' : (⟨2, ![64, 64]⟩ : Shape).Idx → EReal} {b2 b2' : Fin 64 → EReal} {c c' : Fin 64}
    (hx : ∀ l, xr l = xr' l) (ha : ∀ l, ar l = ar' l) (hW1 : ∀ l k, W1 (ix2 l k) = W1' (ix2 l k)) (hb1 : ∀ k, b1 k = b1' k)
    (hW2 : ∀ k q, W2 (ix2 k q) = W2' (ix2 k q)) (hb2 : ∀ q, b2 q = b2' q) (hc : c = c') :
    node xr ar W1 b1 W2 b2 c = node xr' ar' W1' b1' W2' b2' c' := by
  subst hc
  unfold node hiddenChannel
  rw [hb2 c]
  refine congrArg (· + b2' c) (Finset.sum_congr rfl fun k _ => ?_)
  rw [hW2 k c, hb1 k]
  refine congrArg (fun z => max (z + b1' k) zeroWord * W2' (ix2 k c)) (Finset.sum_congr rfl fun l _ => ?_)
  rw [hx l, ha l, hW1 l k]

/-- The layer over all 100000 nodes: entry (r, c) is `node` of row `r` of the features and of the aggregate. -/
def layer (x a : (⟨2, ![100000, 65]⟩ : Shape).Idx → EReal) (W1 : (⟨2, ![65, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![100000, 64]⟩ : Shape).Idx → EReal :=
  fun i => node (fun l => x (ix2 (i 0) l)) (fun l => a (ix2 (i 0) l)) W1 (fun k => b1 (ix1 k)) W2 (fun k => b2 (ix1 k)) (i 1)

end GraphLayer

end
-- ==== Proof.BodyPayload.lean ====
/- What the kernel's body computes for a half-block of 5000 nodes, read at one entry.

   The body adds the half-block of features and the half-block of aggregated neighbour features, multiplies by W1 on the
   matrix unit, adds the bias row, clips at zero, multiplies by W2 and adds the second bias row. The roundings to bf16 in
   front of the two matrix products are the identity on the extended reals, and a matrix product into a zero accumulator is
   the plain sum over the contracted axis; so entry (p, q) of the stored value is `GraphLayer.node` of row `p` of the two
   loaded half-blocks. -/
import proofs.«149521_j79723182948735_2_alg».proof.Proof.Gen.KernelIdeal.Skeleton
import proofs.«149521_j79723182948735_2_alg».proof.Proof.GraphLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx GraphLayer

/-- The first matrix product's dimension numbers: [5000, 65] × [65, 64], contracting the 65 feature channels. -/
abbrev D1 : DotDims S5000x65 S65x64 S5000x64 := dot_S5000x65_S65x64_S5000x64_1_0_0_1_n_n
/-- The second: [5000, 64] × [64, 64], contracting the 64 hidden channels. -/
abbrev D2 : DotDims S5000x64 S64x64 S5000x64 := dot_S5000x64_S64x64_S5000x64_1_0_0_1_n_n

/-- The left operand's index of the first product at output entry `i` and contraction index `q`: row `i 0`, column `q`. -/
theorem D1_lhs0 (i : S5000x64.Idx) (q : D1.contr.Idx) : (D1.lhsIdx i q 0).val = (i 0).val := by
  unfold DotDims.lhsIdx
  rw [dif_neg (show ¬(0 : Fin S5000x65.rank) ∈ D1.lhsBatch by decide), dif_pos (show (0 : Fin S5000x65.rank) ∈ D1.lhsNonContracting by decide)]
  rfl
theorem D1_lhs1 (i : S5000x64.Idx) (q : D1.contr.Idx) : (D1.lhsIdx i q 1).val = (q ⟨0, by decide⟩).val :=
  D1.lhsIdx_val_of_single rfl i q
/-- The right operand's: row `q`, column `i 1`. -/
theorem D1_rhs0 (i : S5000x64.Idx) (q : D1.contr.Idx) : (D1.rhsIdx i q 0).val = (q ⟨0, by decide⟩).val :=
  D1.rhsIdx_val_of_single rfl i q
theorem D1_rhs1 (i : S5000x64.Idx) (q : D1.contr.Idx) : (D1.rhsIdx i q 1).val = (i 1).val := by
  unfold DotDims.rhsIdx
  rw [dif_neg (show ¬(1 : Fin S65x64.rank) ∈ D1.rhsBatch by decide), dif_pos (show (1 : Fin S65x64.rank) ∈ D1.rhsNonContracting by decide)]
  rfl

theorem D2_lhs0 (i : S5000x64.Idx) (q : D2.contr.Idx) : (D2.lhsIdx i q 0).val = (i 0).val := by
  unfold DotDims.lhsIdx
  rw [dif_neg (show ¬(0 : Fin S5000x64.rank) ∈ D2.lhsBatch by decide), dif_pos (show (0 : Fin S5000x64.rank) ∈ D2.lhsNonContracting by decide)]
  rfl
theorem D2_lhs1 (i : S5000x64.Idx) (q : D2.contr.Idx) : (D2.lhsIdx i q 1).val = (q ⟨0, by decide⟩).val :=
  D2.lhsIdx_val_of_single rfl i q
theorem D2_rhs0 (i : S5000x64.Idx) (q : D2.contr.Idx) : (D2.rhsIdx i q 0).val = (q ⟨0, by decide⟩).val :=
  D2.rhsIdx_val_of_single rfl i q
theorem D2_rhs1 (i : S5000x64.Idx) (q : D2.contr.Idx) : (D2.rhsIdx i q 1).val = (i 1).val := by
  unfold DotDims.rhsIdx
  rw [dif_neg (show ¬(1 : Fin S64x64.rank) ∈ D2.rhsBatch by decide), dif_pos (show (1 : Fin S64x64.rank) ∈ D2.rhsNonContracting by decide)]
  rfl

/-- The first matrix product into a zero accumulator, at entry (p, k): the sum over the 65 feature channels. -/
theorem dot1_apply (a : FVec Ideal S5000x65 .bf16) (w : FVec Ideal S65x64 .bf16) (p : Fin 5000) (k : Fin 64) :
    matmul D1 none a w (constant (F := Ideal) S5000x64 .f32 0x00000000#32) (ix2 p k) = ∑ l : Fin 65, a (ix2 p l) * w (ix2 l k) := by
  simp only [matmul]
  rw [Ideal.matmul_constant_zero_apply, ← Equiv.sum_comp (contrEquiv1 D1 65 rfl rfl).symm]
  refine Finset.sum_congr rfl fun l _ => ?_
  have hl := contrEquiv1_symm_val D1 65 rfl rfl l
  have el : D1.lhsIdx (ix2 p k) ((contrEquiv1 D1 65 rfl rfl).symm l) = ix2 p l := funext fun a => Fin.ext (by
    match a with
    | ⟨0, _⟩ => exact D1_lhs0 _ _
    | ⟨1, _⟩ => exact (D1_lhs1 _ _).trans hl)
  have er : D1.rhsIdx (ix2 p k) ((contrEquiv1 D1 65 rfl rfl).symm l) = ix2 l k := funext fun a => Fin.ext (by
    match a with
    | ⟨0, _⟩ => exact (D1_rhs0 _ _).trans hl
    | ⟨1, _⟩ => exact D1_rhs1 _ _)
  rw [el, er]

/-- The second, at entry (p, q): the sum over the 64 hidden channels. -/
theorem dot2_apply (a : FVec Ideal S5000x64 .bf16) (w : FVec Ideal S64x64 .bf16) (p : Fin 5000) (q : Fin 64) :
    matmul D2 none a w (constant (F := Ideal) S5000x64 .f32 0x00000000#32) (ix2 p q) = ∑ k : Fin 64, a (ix2 p k) * w (ix2 k q) := by
  simp only [matmul]
  rw [Ideal.matmul_constant_zero_apply, ← Equiv.sum_comp (contrEquiv1 D2 64 rfl rfl).symm]
  refine Finset.sum_congr rfl fun k _ => ?_
  have hk := contrEquiv1_symm_val D2 64 rfl rfl k
  have el : D2.lhsIdx (ix2 p q) ((contrEquiv1 D2 64 rfl rfl).symm k) = ix2 p k := funext fun a => Fin.ext (by
    match a with
    | ⟨0, _⟩ => exact D2_lhs0 _ _
    | ⟨1, _⟩ => exact (D2_lhs1 _ _).trans hk)
  have er : D2.rhsIdx (ix2 p q) ((contrEquiv1 D2 64 rfl rfl).symm k) = ix2 k q := funext fun a => Fin.ext (by
    match a with
    | ⟨0, _⟩ => exact (D2_rhs0 _ _).trans hk
    | ⟨1, _⟩ => exact D2_rhs1 _ _)
  rw [el, er]

/-- A bias row [1, 64] broadcast over the 5000 rows reads its entry of the same column. -/
theorem biasRow_apply (b : FVec Ideal S1x64 .f32) (p : Fin 5000) (q : Fin 64) :
    broadcastTo S5000x64 b broadcasts_S1x64_S5000x64 (ix2 p q) = b (ix2 (0 : Fin 1) q) :=
  broadcastTo_1b_ab_apply b broadcasts_S1x64_S5000x64 p q

/-- THE BODY'S STORED VALUE at entry (p, q) of a half-block: the layer at row `p` of the loaded half-blocks `xh` (features)
    and `ah` (aggregated neighbour features), with the weights and bias rows as loaded. -/
theorem pay_apply (w1 : Vec Ideal S65x64 .f32) (w2 : Vec Ideal S64x64 .f32) (b1 : Vec Ideal S1x64 .f32) (b2 : Vec Ideal S1x64 .f32)
    (xh : Vec Ideal S5000x65 .f32) (ah : Vec Ideal S5000x65 .f32) (p : Fin 5000) (q : Fin 64) :
    k0_pay1 (F := Ideal) w1 w2 b1 b2 xh ah (ix2 p q)
      = node (fun l => xh (ix2 p l)) (fun l => ah (ix2 p l)) w1 (fun k => b1 (ix2 (0 : Fin 1) k)) w2 (fun k => b2 (ix2 (0 : Fin 1) k)) q := by
  unfold k0_pay1 node
  simp only [shapeCast_self]
  refine congrArg₂ (· + ·) ?_ (biasRow_apply b2 p q)
  refine (dot2_apply _ _ p q).trans (Finset.sum_congr rfl fun k _ => ?_)
  refine congrArg (· * w2 (ix2 k q)) ?_
  unfold hiddenChannel
  refine congrArg₂ max (congrArg₂ (· + ·) (dot1_apply _ _ p k) (biasRow_apply b1 p k)) rfl

end Cert.KernelIdeal.Body

end
-- ==== Proof.BodyBlock.lean ====
/- What the kernel's body leaves in the output block of 10000 nodes.

   The body runs twice, once per half of the block: trip `k` loads rows `5000 k … 5000 k + 4999` of the feature block and of
   the aggregate block, computes the layer on them and stores the result into the same rows of the output block. Each
   stored half is therefore the restriction of ONE function of the whole blocks — `block`: the layer read at every row of
   the 10000-row blocks — and the two halves cover the output block, so the block ends holding `block`. -/
import proofs.«149521_j79723182948735_2_alg».proof.Proof.Gen.KernelIdeal.Frame
import proofs.«149521_j79723182948735_2_alg».proof.Proof.BodyPayload
import Idealize.ShloMosaic.Lib.Pipeline.Value

noncomputable section

open scoped BigOperators

namespace Cert.KernelIdeal.Body

open Cert.KernelIdeal Cert.KernelIdeal.Gen Idealize.ShloMosaic Idealize.ShloMosaic.TcCoe Idealize.ShloMosaic.ValueIdx Idealize.SL.Sem GraphLayer

/-- The layer at every row of a block of 10000 nodes: entry (r, c) is `node` of row `r` of the feature block `xb` and of the
    aggregate block `ab`; the bias rows are [1, 64]. -/
def block (xb ab : (⟨2, ![10000, 65]⟩ : Shape).Idx → EReal) (w1 : (⟨2, ![65, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![10000, 64]⟩ : Shape).Idx → EReal :=
  fun y => node (fun l => xb (ix2 (y 0) l)) (fun l => ab (ix2 (y 0) l)) w1 (fun k => b1 (ix2 (0 : Fin 1) k)) w2
    (fun k => b2 (ix2 (0 : Fin 1) k)) (y 1)

theorem hz : (![0, 0] : Fin 2 → Nat) = fun _ => 0 := funext fun a => by fin_cases a <;> rfl

/-- A half stored at rows `off 0 …` (all 64 columns), computed from the rows `off 0 …` of the two input blocks (all 65
    columns), is `block` on those rows. -/
theorem half_eq_block (xb ab : Vec Ideal S10000x65 .f32) (w1 : Vec Ideal S65x64 .f32) (b1 : Vec Ideal S1x64 .f32)
    (w2 : Vec Ideal S64x64 .f32) (b2 : Vec Ideal S1x64 .f32) (offIn offOut : Fin 2 → Nat) (hio : offIn = offOut) (hcol : offOut 1 = 0)
    (inbIn : ∀ a, offIn a + S5000x65.size a ≤ S10000x65.size a) (inbOut : ∀ a, offOut a + S5000x64.size a ≤ S10000x64.size a)
    (x : (Rect.unit (s := S10000x64) offOut S5000x64.size inbOut).shape.Idx) :
    k0_pay1 (F := Ideal) w1 w2 b1 b2 (View.ld xb (Rect.unit (s := S10000x65) offIn S5000x65.size inbIn))
        (View.ld ab (Rect.unit (s := S10000x65) offIn S5000x65.size inbIn)) x
      = block xb ab w1 b1 w2 b2 ((Rect.unit (s := S10000x64) offOut S5000x64.size inbOut).emb x) := by
  subst hio
  obtain ⟨p, q, rfl⟩ : ∃ (p : Fin 5000) (q : Fin 64), x = ix2 p q := ⟨x 0, x 1, eq_ix2 x⟩
  rw [pay_apply]
  unfold block
  refine node_congr (fun l => ?_) (fun l => ?_) (fun _ _ => rfl) (fun _ => rfl) (fun _ _ => rfl) (fun _ => rfl) (Fin.ext ?_)
  · refine congrArg xb (funext fun a => Fin.ext ?_)
    match a with
    | ⟨0, _⟩ => simp only [LoadRect.idx_apply, Rect.emb_apply, Rect.off_unit, Rect.stride_unit]; rfl
    | ⟨1, _⟩ => simp only [LoadRect.idx_apply, Rect.emb_apply, Rect.off_unit, Rect.stride_unit]; show offIn 1 + 1 * l.val = l.val; omega
  · refine congrArg ab (funext fun a => Fin.ext ?_)
    match a with
    | ⟨0, _⟩ => simp only [LoadRect.idx_apply, Rect.emb_apply, Rect.off_unit, Rect.stride_unit]; rfl
    | ⟨1, _⟩ => simp only [LoadRect.idx_apply, Rect.emb_apply, Rect.off_unit, Rect.stride_unit]; show offIn 1 + 1 * l.val = l.val; omega
  · simp only [Rect.emb_apply, Rect.off_unit, Rect.stride_unit]; show q.val = offIn 1 + 1 * q.val; omega

variable (𝒱 : Variants) (c : Dev nD) (bd : Option 𝒱.V) (i : grid0.Coords) (arg1 : Memref sig .tc .vmem S10000x65 .f32) (harg1 : arg1.IsWhole) (arg2 : Memref sig .tc .vmem S10000x65 .f32) (harg2 : arg2.IsWhole) (arg3 : Memref sig .tc .vmem S65x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)

/-- The one store of trip `k`: at the trip's row offset, the body's value of the two half-blocks loaded at the same row
    offset (from buffers holding `X1` and `X2`). -/
def tripStore {F : FTy → Type} [FloatOps F] (arg1 : Memref sig .tc .vmem S10000x65 .f32) (arg2 : Memref sig .tc .vmem S10000x65 .f32)
    (v0 : Vec F S65x64 .f32) (v2 : Vec F S64x64 .f32) (v4 : Vec F S1x64 .f32) (v6 : Vec F S1x64 .f32)
    (X1 : BufTy.Contents (Elt F) arg1.view.ty) (X2 : BufTy.Contents (Elt F) arg2.view.ty) (k : Fin k0_t1_loop.trips) :
    View.Piece (Elt F) S10000x64 .f32 :=
  ⟨Rect.unit (s := S10000x64) (k0_off2 k) S5000x64.size (k0_off2_inb k),
    k0_pay1 v0 v2 v4 v6 (View.readAt (Elt F) arg1.view (Rect.unit (s := S10000x65) (k0_off1 k) S5000x65.size (k0_off1_inb k)).toLoadRect X1)
      (View.readAt (Elt F) arg2.view (Rect.unit (s := S10000x65) (k0_off1 k) S5000x65.size (k0_off1_inb k)).toLoadRect X2)⟩

/-- ONE TRIP'S STORES, read off the trip's run: that one store. -/
theorem trip_piece {F : FTy → Type} [FloatOps F] (v0 : Vec F S65x64 .f32) (v2 : Vec F S64x64 .f32) (v4 : Vec F S1x64 .f32) (v6 : Vec F S1x64 .f32)
    (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 v0 v2 v4 v6 X1 X2 k = [tripStore arg1 arg2 v0 v2 v4 v6 X1 X2 k] := by
  unfold tripL_k0_t1 trip_k0_t1 tripStore
  rfl

/-- A trip's store is a restriction of `block` (the buffers whole, holding the blocks `xb` and `ab`). -/
theorem tripStore_restricts (xb ab : Vec Ideal S10000x65 .f32) (w1 : Vec Ideal S65x64 .f32) (w2 : Vec Ideal S64x64 .f32)
    (b1 : Vec Ideal S1x64 .f32) (b2 : Vec Ideal S1x64 .f32) (k : Fin k0_t1_loop.trips)
    (x : (Rect.unit (s := S10000x64) (k0_off2 k) S5000x64.size (k0_off2_inb k)).shape.Idx) :
    (tripStore (F := Ideal) arg1 arg2 w1 w2 b1 b2 (harg1.unread xb) (harg2.unread ab) k).2 x
      = block xb ab w1 b1 w2 b2 ((Rect.unit (s := S10000x64) (k0_off2 k) S5000x64.size (k0_off2_inb k)).emb x) := by
  have e1 : View.readAt (Elt Ideal) arg1.view (Rect.unit (s := S10000x65) (k0_off1 k) S5000x65.size (k0_off1_inb k)).toLoadRect (harg1.unread xb)
      = View.ld xb (Rect.unit (s := S10000x65) (k0_off1 k) S5000x65.size (k0_off1_inb k)) := by
    rw [View.readAt_eq_ld, harg1.read_unread]
  have e2 : View.readAt (Elt Ideal) arg2.view (Rect.unit (s := S10000x65) (k0_off1 k) S5000x65.size (k0_off1_inb k)).toLoadRect (harg2.unread ab)
      = View.ld ab (Rect.unit (s := S10000x65) (k0_off1 k) S5000x65.size (k0_off1_inb k)) := by
    rw [View.readAt_eq_ld, harg2.read_unread]
  show k0_pay1 (F := Ideal) w1 w2 b1 b2 _ _ x = _
  rw [e1, e2]
  exact half_eq_block xb ab w1 b1 w2 b2 (k0_off1 k) (k0_off2 k) ((k0_off1_eq k).trans (k0_off2_eq k).symm)
    (by rw [k0_off2_eq]; rfl) (k0_off1_inb k) (k0_off2_inb k) x

/-- Every store of the trips before `n` is a restriction of `block`: by induction on `n`, a trip adding its one store. -/
theorem stores_restrict_block (xb ab : Vec Ideal S10000x65 .f32) (w1 : Vec Ideal S65x64 .f32) (w2 : Vec Ideal S64x64 .f32)
    (b1 : Vec Ideal S1x64 .f32) (b2 : Vec Ideal S1x64 .f32) (n : ℕ) :
    ∀ p ∈ pb_k0_t1 (F := Ideal) 𝒱 c bd i arg1 harg1 arg2 harg2 arg3 harg3 arg4 harg4 arg5 harg5 arg6 harg6 arg7 harg7 w1 w2 b1 b2 (harg1.unread xb) (harg2.unread ab) n,
      ∀ x : p.1.shape.Idx, p.2 x = block xb ab w1 b1 w2 b2 (p.1.emb x) := by
  induction n with
  | zero => intro p hp; rw [pb_k0_t1.eq_1] at hp; exact absurd hp List.not_mem_nil
  | succ n ih =>
    intro p hp
    rw [pb_k0_t1.eq_2] at hp
    unfold pb_k0_t1Step at hp
    by_cases hn : n < k0_t1_loop.trips
    · rw [dif_pos hn] at hp
      rcases List.mem_append.mp hp with h | h
      · rw [trip_piece 𝒱 c bd i arg1 harg1 arg2 harg2 arg3 harg3 arg4 harg4 arg5 harg5 arg6 harg6 arg7 harg7 w1 w2 b1 b2 (harg1.unread xb) (harg2.unread ab) ⟨n, hn⟩, List.mem_singleton] at h
        subst h
        exact tripStore_restricts arg1 harg1 arg2 harg2 xb ab w1 w2 b1 b2 ⟨n, hn⟩
      · exact ih p h
    · rw [dif_neg hn] at hp
      exact ih p hp

/-- THE OUTPUT BLOCK after the body: `block` of the six input blocks. -/
theorem out_eq_block (c : Dev nD) (i : grid0.Coords) (arg1 : Memref sig .tc .vmem S10000x65 .f32) (harg1 : arg1.IsWhole) (arg2 : Memref sig .tc .vmem S10000x65 .f32) (harg2 : arg2.IsWhole) (arg3 : Memref sig .tc .vmem S65x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 x1 : Vec Ideal S10000x65 .f32) (x2 : Vec Ideal S65x64 .f32) (x3 : Vec Ideal S1x64 .f32) (x4 : Vec Ideal S64x64 .f32) (x5 : Vec Ideal S1x64 .f32) :
    out0_A_6 (F := Ideal) c i arg1 harg1 arg2 harg2 arg3 harg3 arg4 harg4 arg5 harg5 arg6 harg6 arg7 harg7 x0 x1 x2 x3 x4 x5 = block x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  funext y
  refine View.canon_apply_of_pieces (block x0 x1 x2 x3 x4 x5) _ ?_ y (cover0_A_6 c i arg1 harg1 arg2 harg2 arg3 harg3 arg4 harg4 arg5 harg5 arg6 harg6 arg7 harg7 x0 x1 x2 x3 x4 x5 y)
  unfold kernelRun0_A
  dsimp only
  rw [View.readAt_eq_ld, View.readAt_eq_ld, View.readAt_eq_ld, View.readAt_eq_ld, harg3.read_unread, harg4.read_unread, harg5.read_unread,
    harg6.read_unread, View.ld_unit_zero (S := S65x64) hz, View.ld_unit_zero (S := S64x64) hz, View.ld_unit_zero (S := S1x64) hz,
    View.ld_unit_zero (S := S1x64) hz]
  exact stores_restrict_block Variants.none c none i arg1 harg1 arg2 harg2 arg3 harg3 arg4 harg4 arg5 harg5 arg6 harg6 arg7 harg7 x0 x1 x2 x4 x3 x5 _

end Cert.KernelIdeal.Body

end
-- ==== Proof.HostArrays.lean ====
/- The arrays the kernel finds at its entry that the host operations wrote: the aggregate of neighbour features and the
   two bias vectors as rows. Each is read off the host operations in front of the kernel as a term of the arguments; the
   aggregate's term is given a name and never opened. -/
import proofs.«149521_j79723182948735_2_alg».proof.Proof.Gen.KernelIdeal.Frame
import proofs.«149521_j79723182948735_2_alg».proof.Proof.GraphLayer
import Idealize.ShloMosaic.Lib.StableHlo.Run

noncomputable section

namespace Cert.KernelIdeal.Layer

open Cert.KernelIdeal Cert.KernelIdeal.Gen
open Idealize.ShloMosaic Idealize.ShloMosaic.TcCoe Idealize.SL.Sem Idealize.ShloMosaic.StableHlo GraphLayer

variable (m : (ℓ : Loc nD τ sig) → Buf (Elt Ideal) ℓ)

/-- The aggregate of neighbour features as this program computes it from the features `x0` and the edge list `x1` (row 0 the
    sources, row 1 the destinations): source indices below zero wrapped by 100000, the source rows gathered, and added into a
    zero array at their destination rows. It is never opened: the reference computes it by the same operations. -/
def agg (x0 : (⟨S100000x65, .f32⟩ : BufTy).Contents (Elt Ideal)) (x1 : (⟨S2x1600000, .i32⟩ : BufTy).Contents (Elt Ideal)) :
    (⟨S100000x65, .f32⟩ : BufTy).Contents (Elt Ideal) :=
  Host.scatterAdd (F := Ideal) scatter_S100000x65_S1600000x1_S1600000x65_1_0_0_1
    (broadcastInDim S100000x65 ![] bcast_S_S100000x65 (constant (F := Ideal) S_ .f32 0x00000000#32))
    (broadcastInDim S1600000x1 ![0] bcast_S1600000_S1600000x1_0 (shapeCast _ (extractStridedSlice S1x1600000 ![1, 0] x1 slices_S2x1600000_S1x1600000_1_0) shapeCasts_S1x1600000_S1600000))
    (Host.gather gather_S100000x65_S1600000x1_S1600000x65_1_0_n_n_0_1_165 x0
      (broadcastInDim S1600000x1 ![0] bcast_S1600000_S1600000x1_0
        (select (cmpi .slt (shapeCast _ (extractStridedSlice S1x1600000 ![0, 0] x1 slices_S2x1600000_S1x1600000_0_0) shapeCasts_S1x1600000_S1600000) (broadcastInDim S1600000 ![] bcast_S_S1600000 (constantI S_ 32 0#32)))
          (addi (shapeCast _ (extractStridedSlice S1x1600000 ![0, 0] x1 slices_S2x1600000_S1x1600000_0_0) shapeCasts_S1x1600000_S1600000) (broadcastInDim S1600000 ![] bcast_S_S1600000 (constantI S_ 32 100000#32)))
          (shapeCast _ (extractStridedSlice S1x1600000 ![0, 0] x1 slices_S2x1600000_S1x1600000_0_0) shapeCasts_S1x1600000_S1600000))))

/-- The kernel's second operand is that aggregate of the arguments. -/
theorem V_agg (c : Dev nD) :
    (V m c main_v13 : S100000x65.Idx → EReal) = agg (m ((c : Thread nD τ).loc main_arg0)) (m ((c : Thread nD τ).loc main_arg1)) := by
  dsimp only [Gen.V, Gen.hostOps0]; after_results; rfl

/-- Its fourth operand is the first bias as a row, -/
theorem V_b1 (c : Dev nD) :
    (V m c main_v14 : S1x64.Idx → EReal) = shapeCast S1x64 (m ((c : Thread nD τ).loc main_arg3)) shapeCasts_S64_S1x64 := by
  dsimp only [Gen.V, Gen.hostOps0]; after_results; rfl

/-- and its sixth the second bias as a row. -/
theorem V_b2 (c : Dev nD) :
    (V m c main_v15 : S1x64.Idx → EReal) = shapeCast S1x64 (m ((c : Thread nD τ).loc main_arg5)) shapeCasts_S64_S1x64 := by
  dsimp only [Gen.V, Gen.hostOps0]; after_results; rfl

/-- THE RESULT ARRAY, as one function of the arguments: the layer of the features, their aggregate, the weights and biases. -/
def result (c : Dev nD) : S100000x64.Idx → EReal :=
  layer (m ((c : Thread nD τ).loc main_arg0)) (agg (m ((c : Thread nD τ).loc main_arg0)) (m ((c : Thread nD τ).loc main_arg1))) (m ((c : Thread nD τ).loc main_arg2)) (m ((c : Thread nD τ).loc main_arg3))
    (m ((c : Thread nD τ).loc main_arg4)) (m ((c : Thread nD τ).loc main_arg5))

end Cert.KernelIdeal.Layer

end
-- ==== Proof.KernelLayer.lean ====
/- From the kernel's blocks to the whole result array.

   The kernel's program first computes, on the host side, the aggregate of neighbour features (the source rows gathered and
   added into their destination rows) and the two bias vectors reshaped to rows; the kernel then visits the 100000 nodes in
   ten blocks of 10000. At block `t` the feature and aggregate windows hold rows `10000 t …` of their arrays, the weight and
   bias windows hold their whole arrays, and the output window is written back to rows `10000 t …` of the result. Since the
   body leaves `Body.block` of its input blocks, and `block` on rows `10000 t …` is the layer on those rows, each write-back is a
   block of ONE array — the layer of the arguments — and the ten blocks cover the result. -/
import proofs.«149521_j79723182948735_2_alg».proof.Proof.Gen.KernelIdeal.Value
import proofs.«149521_j79723182948735_2_alg».proof.Proof.BodyBlock
import proofs.«149521_j79723182948735_2_alg».proof.Proof.HostArrays
import Idealize.ShloMosaic.Lib.Pipeline.Value
import Idealize.ShloMosaic.Lib.ValueLayout
import Idealize.ShloMosaic.Lib.StableHlo.Run

noncomputable section

open scoped BigOperators

namespace Cert.KernelIdeal.Layer

open Cert.KernelIdeal Cert.KernelIdeal.Gen Cert.KernelIdeal.Value Cert.KernelIdeal.Body
open Idealize.ShloMosaic Idealize.ShloMosaic.TcCoe Idealize.ShloMosaic.ValueIdx Idealize.SL.Sem Idealize.ShloMosaic.StableHlo GraphLayer
open Idealize.ShloMosaic.Pipeline (Dat)

variable (m : (ℓ : Loc nD τ sig) → Buf (Elt Ideal) ℓ) (ρ : Dev nD → PrngReg)

/-! ## The windows' blocks -/

/-- The block index maps over the ten grid points: the feature, aggregate and output windows move together along the
    rows, every other block index is zero, and the output's row block stays below ten. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row block of the result is some grid point's. -/
theorem idx_onto : ∀ q : Fin 10, ∃ t : Fin cfg0.N, win0_6.index t = ![q.val, 0] :=
  (by decide +kernel : ∀ q : Fin 10, ∃ t : Fin grid0.N, win0_6.index t = ![q.val, 0])

/-- The feature window's block at point `t`: rows `10000 · (block index) …` of the features. -/
theorem iblk0_apply (c : Dev nD) (t : Fin cfg0.N) (p : Fin 10000) (l : Fin 65) (r : Fin 100000)
    (hr : r.val = win0_6.index t (0 : Fin 2) * 10000 + p.val) :
    (iblk m c 0 t : Vec Ideal S10000x65 .f32) (ix2 p l) = ((m ((c : Thread nD τ).loc main_arg0)) : S100000x65.Idx → EReal) (ix2 r l) := by
  obtain ⟨e0, e1, -⟩ := idx_facts t
  show V m c main_arg0 (((cfg0.win 0).blk t).view.emb (ix2 p l)) = _
  rw [V_main_arg0]
  refine congrArg ((m ((c : Thread nD τ).loc main_arg0)) : S100000x65.Idx → EReal) (funext fun a => Fin.ext ?_)
  match a with
  | ⟨0, _⟩ => show win0_0.index t (0 : Fin 2) * 10000 + 1 * p.val = r.val; omega
  | ⟨1, _⟩ => show win0_0.index t (1 : Fin 2) * 65 + 1 * l.val = l.val; omega

/-- The aggregate window's block of ANY array `A` of the aggregate's shape: rows `10000 · (block index) …` of `A`. (Stated
    for an arbitrary array, so that the aggregate's own term is never looked into.) -/
theorem aggWindow_read (A : S100000x65.Idx → EReal) (t : Fin cfg0.N) (p : Fin 10000) (l : Fin 65) (r : Fin 100000)
    (hr : r.val = win0_6.index t (0 : Fin 2) * 10000 + p.val) :
    ((cfg0.win 1).blk t).view.read (Elt Ideal) A (ix2 p l) = A (ix2 r l) := by
  obtain ⟨-, -, e0, e1, -⟩ := idx_facts t
  show A (((cfg0.win 1).blk t).view.emb (ix2 p l)) = _
  refine congrArg A (funext fun a => Fin.ext ?_)
  match a with
  | ⟨0, _⟩ => show win0_1.index t (0 : Fin 2) * 10000 + 1 * p.val = r.val; omega
  | ⟨1, _⟩ => show win0_1.index t (1 : Fin 2) * 65 + 1 * l.val = l.val; omega

/-- The aggregate window's block at point `t`: the same rows of the aggregate. -/
theorem iblk1_apply (c : Dev nD) (t : Fin cfg0.N) (p : Fin 10000) (l : Fin 65) (r : Fin 100000)
    (hr : r.val = win0_6.index t (0 : Fin 2) * 10000 + p.val) :
    (iblk m c 1 t : Vec Ideal S10000x65 .f32) (ix2 p l) = agg (m ((c : Thread nD τ).loc main_arg0)) (m ((c : Thread nD τ).loc main_arg1)) (ix2 r l) := by
  unfold iblk
  exact (aggWindow_read _ t p l r hr).trans (congrFun (V_agg m c) (ix2 r l))

/-- The first weight window's block is the whole first weight matrix, at every point. -/
theorem iblk2_apply (c : Dev nD) (t : Fin cfg0.N) (l : Fin 65) (k : Fin 64) :
    (iblk m c 2 t : Vec Ideal S65x64 .f32) (ix2 l k) = ((m ((c : Thread nD τ).loc main_arg2)) : S65x64.Idx → EReal) (ix2 l k) := by
  obtain ⟨-, -, -, -, e0, e1, -⟩ := idx_facts t
  show V m c main_arg2 (((cfg0.win 2).blk t).view.emb (ix2 l k)) = _
  rw [V_main_arg2]
  refine congrArg ((m ((c : Thread nD τ).loc main_arg2)) : S65x64.Idx → EReal) (funext fun a => Fin.ext ?_)
  match a with
  | ⟨0, _⟩ => show win0_2.index t (0 : Fin 2) * 65 + 1 * l.val = l.val; omega
  | ⟨1, _⟩ => show win0_2.index t (1 : Fin 2) * 64 + 1 * k.val = k.val; omega

/-- The first bias window's block is the bias row: entry (0, k) is entry k of the bias vector. -/
theorem iblk3_apply (c : Dev nD) (t : Fin cfg0.N) (k : Fin 64) :
    (iblk m c 3 t : Vec Ideal S1x64 .f32) (ix2 (0 : Fin 1) k) = ((m ((c : Thread nD τ).loc main_arg3)) : S64.Idx → EReal) (ix1 k) := by
  obtain ⟨-, -, -, -, -, -, e0, e1, -⟩ := idx_facts t
  show V m c main_v14 (((cfg0.win 3).blk t).view.emb (ix2 (0 : Fin 1) k)) = _
  rw [V_b1]
  refine Eq.trans (congrArg (shapeCast S1x64 (m ((c : Thread nD τ).loc main_arg3)) shapeCasts_S64_S1x64) (funext fun a => Fin.ext ?_)) (shapeCast_a_1a_apply (m ((c : Thread nD τ).loc main_arg3)) shapeCasts_S64_S1x64 (0 : Fin 1) k)
  match a with
  | ⟨0, _⟩ => show win0_3.index t (0 : Fin 2) * 1 + 1 * 0 = 0; omega
  | ⟨1, _⟩ => show win0_3.index t (1 : Fin 2) * 64 + 1 * k.val = k.val; omega

/-- The second weight window's block is the whole second weight matrix. -/
theorem iblk4_apply (c : Dev nD) (t : Fin cfg0.N) (k : Fin 64) (q : Fin 64) :
    (iblk m c 4 t : Vec Ideal S64x64 .f32) (ix2 k q) = ((m ((c : Thread nD τ).loc main_arg4)) : S64x64.Idx → EReal) (ix2 k q) := by
  obtain ⟨-, -, -, -, -, -, -, -, e0, e1, -⟩ := idx_facts t
  show V m c main_arg4 (((cfg0.win 4).blk t).view.emb (ix2 k q)) = _
  rw [V_main_arg4]
  refine congrArg ((m ((c : Thread nD τ).loc main_arg4)) : S64x64.Idx → EReal) (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The second bias window's block is the second bias row. -/
theorem iblk5_apply (c : Dev nD) (t : Fin cfg0.N) (k : Fin 64) :
    (iblk m c 5 t : Vec Ideal S1x64 .f32) (ix2 (0 : Fin 1) k) = ((m ((c : Thread nD τ).loc main_arg5)) : S64.Idx → EReal) (ix1 k) := by
  obtain ⟨-, -, -, -, -, -, -, -, -, -, e0, e1, -⟩ := idx_facts t
  show V m c main_v15 (((cfg0.win 5).blk t).view.emb (ix2 (0 : Fin 1) k)) = _
  rw [V_b2]
  refine Eq.trans (congrArg (shapeCast S1x64 (m ((c : Thread nD τ).loc main_arg5)) shapeCasts_S64_S1x64) (funext fun a => Fin.ext ?_)) (shapeCast_a_1a_apply (m ((c : Thread nD τ).loc main_arg5)) shapeCasts_S64_S1x64 (0 : Fin 1) k)
  match a with
  | ⟨0, _⟩ => show win0_5.index t (0 : Fin 2) * 1 + 1 * 0 = 0; omega
  | ⟨1, _⟩ => show win0_5.index t (1 : Fin 2) * 64 + 1 * k.val = k.val; omega

/-! ## Each write-back is a block of `result`; the blocks cover the array -/

/-- WHAT POINT `t` WRITES BACK is block `t` of `result`. -/
theorem flushed_eq (c : Dev nD) (t : Fin cfg0.N) :
    (dats m 0 c).flushed 6 t = ((cfg0.win 6).blk t).view.read (Elt Ideal) (result m c) := by
  rw [flushed6_A, out_eq_block]
  obtain ⟨-, -, -, -, -, -, -, -, -, -, -, -, e61, -⟩ := idx_facts t
  funext j
  show block (iblk m c 0 t) (iblk m c 1 t) (iblk m c 2 t) (iblk m c 3 t) (iblk m c 4 t) (iblk m c 5 t) j
    = result m c (((cfg0.win 6).blk t).view.emb j)
  unfold block result layer
  refine node_congr (fun l => ?_) (fun l => ?_) (fun l k => ?_) (fun k => ?_) (fun k q => ?_) (fun q => ?_) (Fin.ext ?_)
  · exact iblk0_apply m c t (j 0) l _ (by show win0_6.index t (0 : Fin 2) * 10000 + 1 * (j 0).val = _; omega)
  · exact iblk1_apply m c t (j 0) l _ (by show win0_6.index t (0 : Fin 2) * 10000 + 1 * (j 0).val = _; omega)
  · exact iblk2_apply m c t l k
  · exact iblk3_apply m c t k
  · exact iblk4_apply m c t k q
  · exact iblk5_apply m c t q
  · show (j 1).val = win0_6.index t (1 : Fin 2) * 64 + 1 * (j 1).val; omega

/-- An index of the result is in point `t`'s block iff each coordinate is in the block's range. -/
theorem mem_blk (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v16).slice (win0_6.rect t)).set ↔ _
  rw [View.set_slice_whole, Rect.mem_set_unit]
  exact Iff.rfl

/-- Every entry of the result lies in the block of the point whose row block holds its row. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- THE RESULT ARRAY after the run is `result`. -/
theorem final (c : Dev nD) : (dats m 0 c).arrAt 6 cfg0.N = result m c :=
  (dats m 0 c).arrAt_eq_of_cover 6 (result m c) (fun t _ => flushed_eq m c t) covered

/-- The kernel's run, read: the result array ends at `result`, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Layer

end
-- ==== Proof.RefLayer.lean ====
/- The reference program's result is the layer, entry by entry.

   The reference computes the aggregate `a` of neighbour features (a gather of source rows and a scatter-add into
   destination rows), then `(x + a) · W1 + b1`, clips at zero, then `· W2 + b2`, each over the whole [100000, ·] arrays.
   Reading its last operation at an entry (r, c) and following the operands back one operation at a time gives
   `GraphLayer.node` of row `r` of `x` and of `a`. The aggregate itself is not opened: the kernel's program computes it by
   the same operations, so it stays one named array on both sides. -/
import proofs.«149521_j79723182948735_2_alg».proof.Proof.Gen.ReferenceIdeal.Read
import proofs.«149521_j79723182948735_2_alg».proof.Proof.GraphLayer

noncomputable section

open scoped BigOperators

namespace Cert.ReferenceIdeal.Layer

open Cert.ReferenceIdeal Cert.ReferenceIdeal.Gen Cert.ReferenceIdeal.Read Idealize.ShloMosaic Idealize.ShloMosaic.ValueIdx GraphLayer

/-- The reference's result, as a function of its six arguments, is `layer` of the features, the aggregate the
    reference computes (`val_main_v13`: the scatter-add's result), the weights and the biases. -/
theorem result_eq_layer (x0 : (⟨S100000x65, .f32⟩ : BufTy).Contents (Elt Ideal)) (x1 : (⟨S2x1600000, .i32⟩ : BufTy).Contents (Elt Ideal))
    (x2 : (⟨S65x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v23 (F := Ideal) x0 x1 x2 x3 x4 x5 = layer x0 (val_main_v13 (F := Ideal) x0 x1) x2 x3 x4 x5 := by
  funext i
  obtain ⟨r, c, rfl⟩ : ∃ (r : Fin 100000) (c : Fin 64), i = ix2 r c := ⟨i 0, i 1, eq_ix2 i⟩
  -- the operand indices the generated reading composes, as rows and columns
  have e20l : ∀ k : Fin 64, lidx_main_v20 (ix2 r c) k = ix2 r k := fun k => funext fun a => Fin.ext (by
    match a with | ⟨0, _⟩ => rfl | ⟨1, _⟩ => rfl)
  have e20r : ∀ k : Fin 64, ridx_main_v20 (ix2 r c) k = ix2 k c := fun k => funext fun a => Fin.ext (by
    match a with | ⟨0, _⟩ => rfl | ⟨1, _⟩ => rfl)
  have e15l : ∀ (k : Fin 64) (l : Fin 65), lidx_main_v15 (ix2 r k) l = ix2 r l := fun k l => funext fun a => Fin.ext (by
    match a with | ⟨0, _⟩ => rfl | ⟨1, _⟩ => rfl)
  have e15r : ∀ (k : Fin 64) (l : Fin 65), ridx_main_v15 (ix2 r k) l = ix2 l k := fun k l => funext fun a => Fin.ext (by
    match a with | ⟨0, _⟩ => rfl | ⟨1, _⟩ => rfl)
  have e22 : idx_main_v21 (idx_main_v22 (ix2 r c)) = ix1 c := funext fun a => Fin.ext (by
    match a with | ⟨0, _⟩ => rfl)
  have e17 : ∀ k : Fin 64, idx_main_v16 (idx_main_v17 (ix2 r k)) = ix1 k := fun k => funext fun a => Fin.ext (by
    match a with | ⟨0, _⟩ => rfl)
  rw [val_main_v23_apply, val_main_v20_apply, val_main_v22_apply, val_main_v21_apply, e22]
  simp only [Ideal.addf_def]
  unfold layer node
  refine congrArg₂ (· + ·) (Finset.sum_congr rfl fun k _ => ?_) rfl
  rw [e20l, e20r, val_main_v19_apply, val_main_v18_apply, val_main_v15_apply, val_main_v17_apply, val_main_v16_apply, e17,
    val_main_call0_v0_apply, val_main_call0_cst_apply]
  simp only [Ideal.addf_def, Ideal.maximumf_def, Ideal.ofBits_def]
  unfold hiddenChannel
  refine congrArg (· * x4 (ix2 k c)) (congrArg₂ max (congrArg₂ (· + ·) (Finset.sum_congr rfl fun l _ => ?_) rfl) rfl)
  rw [e15l, e15r, val_main_v14_apply]
  rfl

end Cert.ReferenceIdeal.Layer

end
-- ==== Proof.lean ====
/- A graph layer computed block by block on the accelerator equals the same layer computed on whole arrays, over the
   extended reals.

   Both programs first form, by the same host operations, the aggregate `a` of neighbour features (for every edge the source
   node's feature row is added into the destination node's row). The kernel's program then visits the 100000 nodes in ten
   blocks of 10000, each block in two halves of 5000, and for every node `r` and output channel `c` computes

       out r c = ∑ k, max (∑ l, (x r l + a r l) · W1 l k + b1 k) 0 · W2 k c + b2 c     (`GraphLayer.node`),

   rounding to bf16 before its two matrix products — the identity on the extended reals. The reference computes the same
   expression over the whole arrays with two `dot_general`s. An entry of the result depends on one row of `x` and of `a` only,
   so the tiling changes nothing: the kernel's halves are restrictions of one function of its blocks (Proof/BodyBlock.lean),
   its blocks are restrictions of one function of the arrays (Proof/KernelLayer.lean), and the reference's result is that
   function (Proof/RefLayer.lean). No algebraic law is used — both sides are literally the same sums — so the finiteness of
   the inputs is never opened. Reading the kernel over the extended reals changed no operation of its text, so `preserves` has nothing to state. The three
   frames are the generated ones (the reference's: its generated run with the result dropped). -/
import proofs.«149521_j79723182948735_2_alg».proof.Proof.Gen.Kernel
import proofs.«149521_j79723182948735_2_alg».proof.Proof.Gen.Kernel.Frame
import proofs.«149521_j79723182948735_2_alg».proof.Proof.Gen.KernelIdeal
import proofs.«149521_j79723182948735_2_alg».proof.Proof.Gen.KernelIdeal.Frame
import proofs.«149521_j79723182948735_2_alg».proof.Proof.Gen.KernelIdeal.Value
import proofs.«149521_j79723182948735_2_alg».proof.Proof.Gen.ReferenceIdeal
import proofs.«149521_j79723182948735_2_alg».proof.Proof.Gen.ReferenceIdeal.Run
import proofs.«149521_j79723182948735_2_alg».proof.Proof.Gen.ReferenceIdeal.Read
import proofs.«149521_j79723182948735_2_alg».proof.Proof.Gen.Pre_finite_inputs
import proofs.«149521_j79723182948735_2_alg».proof.Proof.KernelLayer
import proofs.«149521_j79723182948735_2_alg».proof.Proof.RefLayer
import proofs.«149521_j79723182948735_2_alg».proof.Defs
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference has no kernel: it runs as the sequence of its host operations, which write no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs form the aggregate of neighbour features by the same operations on the same arguments: the two
    spellings differ only in the names of the shapes and of the operations' dimension records. -/
theorem agg_eq (x0 : (⟨Cert.ReferenceIdeal.S100000x65, .f32⟩ : BufTy).Contents (Elt Ideal))
    (x1 : (⟨Cert.ReferenceIdeal.S2x1600000, .i32⟩ : BufTy).Contents (Elt Ideal)) :
    Cert.ReferenceIdeal.Read.val_main_v13 (F := Ideal) x0 x1 = Cert.KernelIdeal.Layer.agg x0 x1 := rfl

/-- From memories that agree on the six arguments, both programs end with the layer of those arguments in their result
    arrays: the kernel's by `KernelIdeal.Layer.run`, the reference's by its generated run read as `GraphLayer.layer`. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v23_eq, Cert.ReferenceIdeal.Layer.result_eq_layer, agg_eq, h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
